-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S800000 32) (main_arg8 : IVec S800000 32) (main_arg9 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩
abbrev S500x64 : Shape := ⟨2, ![500, 64]⟩
abbrev S500 : Shape := ⟨1, ![500]⟩
abbrev S500x1 : Shape := ⟨2, ![500, 1]⟩

abbrev nBuf : Space → Nat
  | .hbm => 115
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S1x128, .f32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x1, .f32⟩
  | .hbm, ⟨78, _⟩ => ⟨S1x128, .f32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x1, .f32⟩
  | .hbm, ⟨97, _⟩ => ⟨S1x64, .f32⟩
  | .hbm, ⟨98, _⟩ => ⟨S50000x64, .f32⟩
  | .hbm, ⟨99, _⟩ => ⟨S_, .f32⟩
  | .hbm, ⟨100, _⟩ => ⟨S500x64, .f32⟩
  | .hbm, ⟨101, _⟩ => ⟨S50000x1, .i32⟩
  | .hbm, ⟨102, _⟩ => ⟨S500x64, .f32⟩
  | .hbm, ⟨103, _⟩ => ⟨S_, .f32⟩
  | .hbm, ⟨104, _⟩ => ⟨S50000, .f32⟩
  | .hbm, ⟨105, _⟩ => ⟨S_, .f32⟩
  | .hbm, ⟨106, _⟩ => ⟨S500, .f32⟩
  | .hbm, ⟨107, _⟩ => ⟨S50000x1, .i32⟩
  | .hbm, ⟨108, _⟩ => ⟨S500, .f32⟩
  | .hbm, ⟨109, _⟩ => ⟨S_, .f32⟩
  | .hbm, ⟨110, _⟩ => ⟨S500, .f32⟩
  | .hbm, ⟨111, _⟩ => ⟨S500, .f32⟩
  | .hbm, ⟨112, _⟩ => ⟨S500x1, .f32⟩
  | .hbm, ⟨113, _⟩ => ⟨S500x64, .f32⟩
  | .hbm, ⟨114, _⟩ => ⟨S500x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_8 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S500x64 : S_.BroadcastsInDim S500x64 (![] : Fin 0 → Fin S500x64.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S500x64 : Shape := ⟨2, ![500, 64]⟩
abbrev S500 : Shape := ⟨1, ![500]⟩
abbrev S500x1 : Shape := ⟨2, ![500, 1]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S800000, .i32⟩
  | 8 => ⟨S800000, .i32⟩
  | 9 => ⟨S50000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x1, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x1, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x1, .f32⟩
  | 111 => ⟨S50000x128, .f32⟩
  | 112 => ⟨S50000x128, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S_, .f32⟩
  | 121 => ⟨S500x64, .f32⟩
  | 122 => ⟨S50000x1, .i32⟩
  | 123 => ⟨S500x64, .f32⟩
  | 124 => ⟨S_, .f32⟩
  | 125 => ⟨S50000, .f32⟩
  | 126 => ⟨S_, .f32⟩
  | 127 => ⟨S500, .f32⟩
  | _ => ⟨S50000x128, .f32⟩

abbrev hbmTy0_1 (i : Nat) : BufTy := match i % 128 with
  | 0 => ⟨S50000x1, .i32⟩
  | 1 => ⟨S500, .f32⟩
  | 2 => ⟨S_, .f32⟩
  | 3 => ⟨S500, .f32⟩
  | 4 => ⟨S500, .f32⟩
  | 5 => ⟨S500x1, .f32⟩
  | 6 => ⟨S500x64, .f32⟩
  | 7 => ⟨S500x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_8 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call3_cst : Ref sig .tc := ⟨.hbm, 91, rfl⟩
abbrev main_call3_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call4_cst : Ref sig .tc := ⟨.hbm, 117, rfl⟩
abbrev main_call4_v0 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_17 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S500x64 : S_.BroadcastsInDim S500x64 (![] : Fin 0 → Fin S500x64.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

class Facts : Prop extends Facts₀ where

variable [Facts]
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«110242_j27367531610736_1_alg».proof.Proof.LibDenseLayer
import proofs.«110242_j27367531610736_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«110242_j27367531610736_1_alg».proof.Proof.LibDenseLayer
import proofs.«110242_j27367531610736_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibScaledLayer.lean ====
/-
  A dense layer on row-scaled input, followed by the rectifier, on the extended reals.

  For `x : [M, K]`, a scale `s p` per row, `w : [K, N]` and a bias `b q` per column, the entry `(p, q)` of the layer is
  `max ((∑ k, (x (p, k) · s p) · w (k, q)) + b q) 0`: row `p` of `x`, every entry multiplied by `s p`, against column `q`
  of `w`, plus the bias, clamped below at zero (`scaledLayer`).

  A vector unit is handed the scales as an `[M, 1]` column and the bias as a `[1, N]` row: it broadcasts the column over
  the `K` columns of `x`, multiplies, narrows both factors of the product to a shorter float format (no change on the
  extended reals), multiplies the matrices into a zero accumulator, adds the row broadcast over the `M` rows, and takes the
  maximum with a scalar zero (`vec_scaledLayer`). A host program is handed the scales as a vector of length `M` and the
  bias as a vector of length `N`: it lifts the scales to a column and broadcasts it, multiplies, takes a general dot product,
  adds the bias lifted to a row and broadcast, and takes the maximum with a rank-0 zero broadcast to the shape
  (`host_scaledLayer`). Both are `scaledLayer`.

  An entry of the layer depends on ONE row of `x` and on that row's scale only, so a block of consecutive rows of the
  layer is the layer of that block of rows (`scaledLayer_rows`).
-/
import proofs.«110242_j27367531610736_1_alg».proof.Proof.LibDenseLayer
import proofs.«110242_j27367531610736_1_alg».proof.Proof.LibPlainMatmul
import proofs.«110242_j27367531610736_1_alg».proof.Proof.LibLayerForms
import proofs.«110242_j27367531610736_1_alg».proof.Proof.LibBiasRow
import proofs.«110242_j27367531610736_1_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ScaledLayer

open Idealize.ShloMosaic Idealize.ShloMosaic.ValueIdx Cert.DenseLayer Cert.LayerForms Cert.LibBiasRow

/-- Every row of `x` multiplied by that row's scale. -/
def scaleRows {M K : ℕ} (x : (⟨2, ![M, K]⟩ : Shape).Idx → EReal) (s : Fin M → EReal) : (⟨2, ![M, K]⟩ : Shape).Idx → EReal :=
  fun i => x i * s (i 0)

/-- The layer: rows scaled, times `w`, plus the bias, clamped below at zero. -/
def scaledLayer {M K N : ℕ} (x : (⟨2, ![M, K]⟩ : Shape).Idx → EReal) (s : Fin M → EReal)
    (w : (⟨2, ![K, N]⟩ : Shape).Idx → EReal) (b : Fin N → EReal) : (⟨2, ![M, N]⟩ : Shape).Idx → EReal :=
  relu (dense (scaleRows x s) w b)

theorem scaledLayer_ix2 {M K N : ℕ} (x : (⟨2, ![M, K]⟩ : Shape).Idx → EReal) (s : Fin M → EReal)
    (w : (⟨2, ![K, N]⟩ : Shape).Idx → EReal) (b : Fin N → EReal) (p : Fin M) (q : Fin N) :
    scaledLayer x s w b (ix2 p q) = max ((∑ k : Fin K, (x (ix2 p k) * s p) * w (ix2 k q)) + b q) 0 := rfl

/-- Row `p` of the layer on a block of rows is row `P` of the layer on the whole array, when row `p` of the block is
    row `P` of the array and carries the same scale. -/
theorem scaledLayer_rows {m M K N : ℕ} (xb : (⟨2, ![m, K]⟩ : Shape).Idx → EReal) (x : (⟨2, ![M, K]⟩ : Shape).Idx → EReal)
    (sb : Fin m → EReal) (s : Fin M → EReal) (w : (⟨2, ![K, N]⟩ : Shape).Idx → EReal) (b : Fin N → EReal)
    (p : Fin m) (P : Fin M) (q : Fin N) (hx : ∀ k : Fin K, xb (ix2 p k) = x (ix2 P k)) (hs : sb p = s P) :
    scaledLayer xb sb w b (ix2 p q) = scaledLayer x s w b (ix2 P q) := by
  rw [scaledLayer_ix2, scaledLayer_ix2]
  refine congrArg (fun z => max (z + b q) 0) (Finset.sum_congr rfl fun k _ => ?_)
  rw [hx k, hs]

/-- The layer as a vector unit spells it: the scales an `[M, 1]` column, the bias a `[1, N]` row. -/
theorem vec_scaledLayer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (s : FVec Ideal ⟨2, ![M, 1]⟩ .f32)
    (w : FVec Ideal ⟨2, ![K, N]⟩ .f32) (b : FVec Ideal ⟨2, ![1, N]⟩ .f32)
    (hx : (⟨2, ![M, K]⟩ : Shape).ShapeCasts ⟨2, ![M, K]⟩) (hs : (⟨2, ![M, 1]⟩ : Shape).ShapeCasts ⟨2, ![M, 1]⟩)
    (hsb : (⟨2, ![M, 1]⟩ : Shape).Broadcasts ⟨2, ![M, K]⟩) (hc : (⟨2, ![1, N]⟩ : Shape).ShapeCasts ⟨2, ![1, N]⟩)
    (hb : (⟨2, ![1, N]⟩ : Shape).Broadcasts ⟨2, ![M, N]⟩) (hlt : FTy.bf16.bits < FTy.f32.bits) :
    maximumf
        (addf
          (matmul D prec
            (truncf .bf16 (mulf (shapeCast ⟨2, ![M, K]⟩ x hx) (broadcastTo ⟨2, ![M, K]⟩ (shapeCast ⟨2, ![M, 1]⟩ s hs) hsb)) hlt)
            (truncf .bf16 w hlt) (constant ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32))
      = scaledLayer x (fun p => s (ix2 p (0 : Fin 1))) w (rowBias b) := by
  funext i
  obtain ⟨p, q, rfl⟩ : ∃ (p : Fin M) (q : Fin N), i = ix2 p q := ⟨i 0, i 1, eq_ix2 i⟩
  rw [scaledLayer_ix2]
  show max (FloatOps.matmul D prec
        (truncf .bf16 (mulf (shapeCast ⟨2, ![M, K]⟩ x hx) (broadcastTo ⟨2, ![M, K]⟩ (shapeCast ⟨2, ![M, 1]⟩ s hs) hsb)) hlt)
        (truncf .bf16 w hlt) (constant ⟨2, ![M, N]⟩ .f32 0x00000000#32) (ix2 p q)
      + broadcastTo ⟨2, ![M, N]⟩ (shapeCast ⟨2, ![1, N]⟩ b hc) hb (ix2 p q)) (Ideal.ofBits .f32 0x00000000#32)
    = max ((∑ k : Fin K, (x (ix2 p k) * s (ix2 p (0 : Fin 1))) * w (ix2 k q)) + b (ix2 (0 : Fin 1) q)) 0
  rw [Cert.LibPlainMatmul.matmul_plain_zero_apply D hD, broadcastTo_1b_ab_apply, Ideal.ofBits_zero_f32]
  simp only [shapeCast_self]
  refine congrArg (fun z => max (z + b (ix2 (0 : Fin 1) q)) 0) (Finset.sum_congr rfl fun k _ => ?_)
  show (x (ix2 p k) * broadcastTo ⟨2, ![M, K]⟩ s hsb (ix2 p k)) * w (ix2 k q)
    = (x (ix2 p k) * s (ix2 p (0 : Fin 1))) * w (ix2 k q)
  rw [Cert.LibColumn.broadcastTo_a1_ab_apply]

/-- A vector of length `M` lifted to a column along a new trailing axis and broadcast over `K` columns reads, at
    `(p, k)`, the vector's entry `p`. -/
theorem colSpread_apply {M K : ℕ} (s : (⟨1, ![M]⟩ : Shape).Idx → EReal)
    (h1 : (⟨1, ![M]⟩ : Shape).BroadcastsInDim ⟨2, ![M, 1]⟩ ![0])
    (h2 : (⟨2, ![M, 1]⟩ : Shape).BroadcastsInDim ⟨2, ![M, K]⟩ ![0, 1]) (p : Fin M) (k : Fin K) :
    broadcastInDim ⟨2, ![M, K]⟩ ![0, 1] h2 (broadcastInDim ⟨2, ![M, 1]⟩ ![0] h1 s) (ix2 p k) = s (ix1 p) := by
  have e2 : broadcastInDim ⟨2, ![M, K]⟩ ![0, 1] h2 (broadcastInDim ⟨2, ![M, 1]⟩ ![0] h1 s) (ix2 p k)
      = broadcastInDim ⟨2, ![M, 1]⟩ ![0] h1 s (ix2 p (0 : Fin 1)) := by
    refine broadcastInDim_apply ![0, 1] h2 _ (ix2 p k) (ix2 p (0 : Fin 1)) fun a => ?_
    match a with
    | ⟨0, _⟩ =>
      show p.val = if M = 1 then 0 else p.val
      split
      · have := p.isLt; omega
      · rfl
    | ⟨1, _⟩ => rfl
  have e1 : broadcastInDim ⟨2, ![M, 1]⟩ ![0] h1 s (ix2 p (0 : Fin 1)) = s (ix1 p) := by
    refine broadcastInDim_apply ![0] h1 s (ix2 p (0 : Fin 1)) (ix1 p) fun a => ?_
    match a with
    | ⟨0, _⟩ =>
      show p.val = if M = 1 then 0 else p.val
      split
      · have := p.isLt; omega
      · rfl
  rw [e2, e1]

/-- The layer as a host program spells it: the scales a vector of length `M`, the bias a vector of length `N`. -/
theorem host_scaledLayer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (s : FVec Ideal ⟨1, ![M]⟩ .f32)
    (w : FVec Ideal ⟨2, ![K, N]⟩ .f32) (b : FVec Ideal ⟨1, ![N]⟩ .f32)
    (hs1 : (⟨1, ![M]⟩ : Shape).BroadcastsInDim ⟨2, ![M, 1]⟩ ![0])
    (hs2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf
        (addf
          (Host.dotGeneral D prec
            (mulf x (broadcastInDim ⟨2, ![M, K]⟩ ![0, 1] hs2 (broadcastInDim ⟨2, ![M, 1]⟩ ![0] hs1 s))) w)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = scaledLayer x (fun p => s (ix1 p)) w (colBias b) := by
  rw [host_layer D hD, host_relu]
  refine congrArg (fun y => relu (dense y w (colBias b))) (funext fun i => ?_)
  obtain ⟨p, k, rfl⟩ : ∃ (p : Fin M) (k : Fin K), i = ix2 p k := ⟨i 0, i 1, eq_ix2 i⟩
  show x (ix2 p k) * broadcastInDim ⟨2, ![M, K]⟩ ![0, 1] hs2 (broadcastInDim ⟨2, ![M, 1]⟩ ![0] hs1 s) (ix2 p k)
    = x (ix2 p k) * s (ix1 p)
  rw [colSpread_apply]

end Cert.ScaledLayer

end
-- ==== Proof.Chains.lean ====
/-
  The graph network as one function of its ten arguments, on the extended reals.

  Both programs compute, on the host, the same things around the three dense layers, operation for operation:
    * `degNorm idx`: the degree of every node (ones scatter-added at the edge endpoints `idx`), then `deg^(-1/2)` where the
      degree is positive (the degree first clamped below at one) and zero elsewhere;
    * `aggregate h nOut src dst`: every node's features scaled by its out-degree factor, gathered along the edges at the
      source (a negative source index wrapped around by 50000), and scatter-added at the destination;
    * `pool h gid`: the features scatter-added per graph, divided by the number of nodes of the graph (clamped below at one).
  A dense layer takes aggregated features `a`, the in-degree factors `nIn`, a weight matrix and a bias to
  `max ((a ⊙ nIn) · w + b) 0` (`hidden`, `hiddenOut`: the array `scaledLayer`). The network is three rounds of aggregate-then-layer and
  the pooling.
-/
import proofs.«110242_j27367531610736_1_alg».proof.Proof.Gen.KernelIdeal
import proofs.«110242_j27367531610736_1_alg».proof.Proof.LibScaledLayer

noncomputable section

namespace Cert.KernelIdeal.Chains

open Idealize.ShloMosaic Idealize.ShloMosaic.ValueIdx
open Cert.KernelIdeal Cert.KernelIdeal.Facts₀ Cert.KernelIdeal.Facts Cert.ScaledLayer Cert.LayerForms

section Shared

variable {F : FTy → Type} [FloatOps F]

/-- Every node's degree: ones scatter-added at the edge endpoints. -/
def degree (idx : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- `deg^(-1/2)` where the degree is positive, zero elsewhere. -/
def degNorm (idx : IVec S800000 32) : FVec F S50000 .f32 :=
  select (cmpf (F := F) .ogt (degree idx) (broadcastInDim S50000 ![] bcast_S_S50000 (constant S_ .f32 0x00000000#32)))
    (Host.rsqrt (maximumf (degree (F := F) idx) (broadcastInDim S50000 ![] bcast_S_S50000 (constant S_ .f32 0x3F800000#32))))
    (broadcastInDim S50000 ![] bcast_S_S50000 (id (constant S_ .f32 0x00000000#32)))

/-- The edges' source indices as gather indices: a negative index wrapped around by 50000. -/
def srcIndex (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One round of message passing: scale, gather at the sources, scatter-add at the destinations. -/
def aggregate (h : FVec F S50000x128 .f32) (nOut : FVec F S50000 .f32) (src dst : IVec S800000 32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128
      (mulf h (broadcastInDim S50000x128 ![0, 1] bcast_S50000x1_S50000x128_0_1
        (broadcastInDim S50000x1 ![0] bcast_S50000_S50000x1_0 nOut)))
      (srcIndex src))

/-- The per-graph mean of the node features. -/
def pool (h : FVec F S50000x64 .f32) (gid : IVec S50000 32) : FVec F S500x64 .f32 :=
  Host.divf
    (Host.scatterAdd scatter_S500x64_S50000x1_S50000x64_1_0_0_1
      (broadcastInDim S500x64 ![] bcast_S_S500x64 (constant S_ .f32 0x00000000#32))
      (broadcastInDim S50000x1 ![0] bcast_S50000_S50000x1_0 gid) h)
    (broadcastInDim S500x64 ![0, 1] bcast_S500x1_S500x64_0_1 (broadcastInDim S500x1 ![0] bcast_S500_S500x1_0
      (maximumf
        (Host.scatterAdd scatter_S500_S50000x1_S50000_n_0_0_1
          (broadcastInDim S500 ![] bcast_S_S500 (constant S_ .f32 0x00000000#32))
          (broadcastInDim S50000x1 ![0] bcast_S50000_S50000x1_0 gid)
          (broadcastInDim S50000 ![] bcast_S_S50000 (constant S_ .f32 0x3F800000#32)))
        (broadcastInDim S500 ![] bcast_S_S500 (constant S_ .f32 0x3F800000#32)))))

end Shared

/-- A hidden dense layer: `max ((a ⊙ nIn) · w + b) 0`, 128 features out. -/
def hidden (a : FVec Ideal S50000x128 .f32) (nIn : FVec Ideal S50000 .f32) (w : FVec Ideal S128x128 .f32)
    (b : FVec Ideal S128 .f32) : FVec Ideal S50000x128 .f32 :=
  scaledLayer (M := 50000) (K := 128) (N := 128) a (fun P => nIn (ix1 P)) w (colBias b)

/-- The last dense layer: the same with 64 features out. -/
def hiddenOut (a : FVec Ideal S50000x128 .f32) (nIn : FVec Ideal S50000 .f32) (w : FVec Ideal S128x64 .f32)
    (b : FVec Ideal S64 .f32) : FVec Ideal S50000x64 .f32 :=
  scaledLayer (M := 50000) (K := 128) (N := 64) a (fun P => nIn (ix1 P)) w (colBias b)

/-- The network: three rounds of aggregate-then-layer, then the per-graph mean. -/
def network (x : FVec Ideal S50000x128 .f32) (w0 : FVec Ideal S128x128 .f32) (b0 : FVec Ideal S128 .f32)
    (w1 : FVec Ideal S128x128 .f32) (b1 : FVec Ideal S128 .f32) (w2 : FVec Ideal S128x64 .f32) (b2 : FVec Ideal S64 .f32)
    (src dst : IVec S800000 32) (gid : IVec S50000 32) : FVec Ideal S500x64 .f32 :=
  pool
    (hiddenOut
      (aggregate
        (hidden
          (aggregate (hidden (aggregate x (degNorm src) src dst) (degNorm dst) w0 b0) (degNorm src) src dst)
          (degNorm dst) w1 b1)
        (degNorm src) src dst)
      (degNorm dst) w2 b2)
    gid

end Cert.KernelIdeal.Chains

end
-- ==== Proof.Stretches.lean ====
/-
  The host stretches of the kernel's program, read back.

  Between the launch and the first region the program computes the two degree factors, the first round of message passing and
  the layouts the region wants (the in-degree factors as a column, the bias as a row); between two regions the next round of
  message passing from the previous layer's output and the same two layouts; after the last region the per-graph mean. Each
  statement here is for ANY contents `V` the stretch starts from: what one buffer holds afterwards as a function of what the
  buffers it depends on held before. The degree factors, the edge lists and the graph ids are written by no later stretch and
  by no region (`Carried`): every layer reads the same factors, and every round of message passing the same edges. A later
  layer's weights and bias stay as launched until its own region (`Params1`, `Params2`).
-/
import proofs.«110242_j27367531610736_1_alg».proof.Proof.Chains
import proofs.«110242_j27367531610736_1_alg».proof.Proof.Gen.KernelIdeal.Launch
import Idealize.ShloMosaic.Lib.StableHlo.Run
import Idealize.ShloMosaic.Lib.Pipeline.FrameSuffix

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen Cert.KernelIdeal.Chains

variable {F : FTy → Type} [FloatOps F]

/-- The five stretches before the first region, in order, from the contents `V`. -/
abbrev before0 (V : Valuation τ sig (Elt F)) : Valuation τ sig (Elt F) :=
  after hostOps0_4 (after hostOps0_3 (after hostOps0_2 (after hostOps0_1 (after hostOps0 V))))

/-! ## Before the first region -/

set_option maxHeartbeats 4000000 in
/-- The first region's features: one round of message passing from the input features. -/
theorem before0_agg (V : Valuation τ sig (Elt F)) :
    before0 V (Proc.devRef .tc main_v31)
      = aggregate (V (Proc.devRef .tc main_arg0)) (degNorm (V (Proc.devRef .tc main_arg7)))
          (V (Proc.devRef .tc main_arg7)) (V (Proc.devRef .tc main_arg8)) := by
  after_results_simp
  rfl

set_option maxHeartbeats 4000000 in
/-- Its scales: the in-degree factors laid out as a column. -/
theorem before0_col (V : Valuation τ sig (Elt F)) :
    before0 V (Proc.devRef .tc main_v32)
      = shapeCast S50000x1 (degNorm (V (Proc.devRef .tc main_arg8))) shapeCasts_S50000_S50000x1 := by
  after_results_simp
  rfl

set_option maxHeartbeats 4000000 in
/-- Its weights: the first weight matrix as launched. -/
theorem before0_w (V : Valuation τ sig (Elt F)) :
    before0 V (Proc.devRef .tc main_arg1) = V (Proc.devRef .tc main_arg1) := by
  after_results_simp

set_option maxHeartbeats 4000000 in
/-- Its bias: the first bias laid out as a row. -/
theorem before0_row (V : Valuation τ sig (Elt F)) :
    before0 V (Proc.devRef .tc main_v33) = shapeCast S1x128 (V (Proc.devRef .tc main_arg2)) shapeCasts_S128_S1x128 := by
  after_results_simp
  rfl

/-! ## What every later segment finds unchanged -/

/-- The contents `V` hold the two degree factors of the launch contents `V0`'s edge lists, and `V0`'s edge lists and graph ids. -/
structure Carried (V0 V : Valuation τ sig (Elt F)) : Prop where
  nOut : V (Proc.devRef .tc main_v12) = degNorm (V0 (Proc.devRef .tc main_arg7))
  nIn : V (Proc.devRef .tc main_v18) = degNorm (V0 (Proc.devRef .tc main_arg8))
  a7 : V (Proc.devRef .tc main_arg7) = V0 (Proc.devRef .tc main_arg7)
  a8 : V (Proc.devRef .tc main_arg8) = V0 (Proc.devRef .tc main_arg8)
  a9 : V (Proc.devRef .tc main_arg9) = V0 (Proc.devRef .tc main_arg9)

/-- The contents `V` hold `V0`'s second and third layers' weights and biases. -/
structure Params1 (V0 V : Valuation τ sig (Elt F)) : Prop where
  a3 : V (Proc.devRef .tc main_arg3) = V0 (Proc.devRef .tc main_arg3)
  a4 : V (Proc.devRef .tc main_arg4) = V0 (Proc.devRef .tc main_arg4)
  a5 : V (Proc.devRef .tc main_arg5) = V0 (Proc.devRef .tc main_arg5)
  a6 : V (Proc.devRef .tc main_arg6) = V0 (Proc.devRef .tc main_arg6)

/-- The contents `V` hold `V0`'s third layer's weights and bias. -/
structure Params2 (V0 V : Valuation τ sig (Elt F)) : Prop where
  a5 : V (Proc.devRef .tc main_arg5) = V0 (Proc.devRef .tc main_arg5)
  a6 : V (Proc.devRef .tc main_arg6) = V0 (Proc.devRef .tc main_arg6)

theorem Params1.toParams2 {V0 V : Valuation τ sig (Elt F)} (h : Params1 V0 V) : Params2 V0 V := ⟨h.a5, h.a6⟩

set_option maxHeartbeats 4000000 in
/-- The stretches before the first region compute the two factors and write no argument. -/
theorem carried_before0 (V0 : Valuation τ sig (Elt F)) : Carried V0 (before0 V0) where
  nOut := by after_results_simp; rfl
  nIn := by after_results_simp; rfl
  a7 := by after_results_simp
  a8 := by after_results_simp
  a9 := by after_results_simp

set_option maxHeartbeats 4000000 in
theorem params1_before0 (V0 : Valuation τ sig (Elt F)) : Params1 V0 (before0 V0) where
  a3 := by after_results_simp
  a4 := by after_results_simp
  a5 := by after_results_simp
  a6 := by after_results_simp

/-! A stretch between two regions writes none of these; a region writes back into its output array only. -/

set_option maxHeartbeats 4000000 in
theorem Carried.host1 {V0 V : Valuation τ sig (Elt F)} (h : Carried V0 V) : Carried V0 (after hostOps1 V) where
  nOut := by show after hostOps1 V _ = _; after_results_simp; exact h.nOut
  nIn := by show after hostOps1 V _ = _; after_results_simp; exact h.nIn
  a7 := by show after hostOps1 V _ = _; after_results_simp; exact h.a7
  a8 := by show after hostOps1 V _ = _; after_results_simp; exact h.a8
  a9 := by show after hostOps1 V _ = _; after_results_simp; exact h.a9

set_option maxHeartbeats 4000000 in
theorem Carried.host2 {V0 V : Valuation τ sig (Elt F)} (h : Carried V0 V) : Carried V0 (after hostOps2 V) where
  nOut := by show after hostOps2 V _ = _; after_results_simp; exact h.nOut
  nIn := by show after hostOps2 V _ = _; after_results_simp; exact h.nIn
  a7 := by show after hostOps2 V _ = _; after_results_simp; exact h.a7
  a8 := by show after hostOps2 V _ = _; after_results_simp; exact h.a8
  a9 := by show after hostOps2 V _ = _; after_results_simp; exact h.a9

theorem Carried.region0 {V0 V : Valuation τ sig (Elt F)} (h : Carried V0 V) (c : Dev nD)
    (f : (w : Fin 5) → Buf (Elt F) ((c : Thread nD τ).loc (Pipeline.arrRef spec0 w))) :
    Carried V0 (Pipeline.withArrays spec0 c V f) where
  nOut := (Pipeline.withArrays_of_ne spec0 c V f main_v12 (by decide)).trans h.nOut
  nIn := (Pipeline.withArrays_of_ne spec0 c V f main_v18 (by decide)).trans h.nIn
  a7 := (Pipeline.withArrays_of_ne spec0 c V f main_arg7 (by decide)).trans h.a7
  a8 := (Pipeline.withArrays_of_ne spec0 c V f main_arg8 (by decide)).trans h.a8
  a9 := (Pipeline.withArrays_of_ne spec0 c V f main_arg9 (by decide)).trans h.a9

theorem Carried.region1 {V0 V : Valuation τ sig (Elt F)} (h : Carried V0 V) (c : Dev nD)
    (f : (w : Fin 5) → Buf (Elt F) ((c : Thread nD τ).loc (Pipeline.arrRef spec1 w))) :
    Carried V0 (Pipeline.withArrays spec1 c V f) where
  nOut := (Pipeline.withArrays_of_ne spec1 c V f main_v12 (by decide)).trans h.nOut
  nIn := (Pipeline.withArrays_of_ne spec1 c V f main_v18 (by decide)).trans h.nIn
  a7 := (Pipeline.withArrays_of_ne spec1 c V f main_arg7 (by decide)).trans h.a7
  a8 := (Pipeline.withArrays_of_ne spec1 c V f main_arg8 (by decide)).trans h.a8
  a9 := (Pipeline.withArrays_of_ne spec1 c V f main_arg9 (by decide)).trans h.a9

theorem Carried.region2 {V0 V : Valuation τ sig (Elt F)} (h : Carried V0 V) (c : Dev nD)
    (f : (w : Fin 5) → Buf (Elt F) ((c : Thread nD τ).loc (Pipeline.arrRef spec2 w))) :
    Carried V0 (Pipeline.withArrays spec2 c V f) where
  nOut := (Pipeline.withArrays_of_ne spec2 c V f main_v12 (by decide)).trans h.nOut
  nIn := (Pipeline.withArrays_of_ne spec2 c V f main_v18 (by decide)).trans h.nIn
  a7 := (Pipeline.withArrays_of_ne spec2 c V f main_arg7 (by decide)).trans h.a7
  a8 := (Pipeline.withArrays_of_ne spec2 c V f main_arg8 (by decide)).trans h.a8
  a9 := (Pipeline.withArrays_of_ne spec2 c V f main_arg9 (by decide)).trans h.a9

theorem Params1.region0 {V0 V : Valuation τ sig (Elt F)} (h : Params1 V0 V) (c : Dev nD)
    (f : (w : Fin 5) → Buf (Elt F) ((c : Thread nD τ).loc (Pipeline.arrRef spec0 w))) :
    Params1 V0 (Pipeline.withArrays spec0 c V f) where
  a3 := (Pipeline.withArrays_of_ne spec0 c V f main_arg3 (by decide)).trans h.a3
  a4 := (Pipeline.withArrays_of_ne spec0 c V f main_arg4 (by decide)).trans h.a4
  a5 := (Pipeline.withArrays_of_ne spec0 c V f main_arg5 (by decide)).trans h.a5
  a6 := (Pipeline.withArrays_of_ne spec0 c V f main_arg6 (by decide)).trans h.a6

set_option maxHeartbeats 4000000 in
theorem Params2.host1 {V0 V : Valuation τ sig (Elt F)} (h : Params2 V0 V) : Params2 V0 (after hostOps1 V) where
  a5 := by show after hostOps1 V _ = _; after_results_simp; exact h.a5
  a6 := by show after hostOps1 V _ = _; after_results_simp; exact h.a6

theorem Params2.region1 {V0 V : Valuation τ sig (Elt F)} (h : Params2 V0 V) (c : Dev nD)
    (f : (w : Fin 5) → Buf (Elt F) ((c : Thread nD τ).loc (Pipeline.arrRef spec1 w))) :
    Params2 V0 (Pipeline.withArrays spec1 c V f) where
  a5 := (Pipeline.withArrays_of_ne spec1 c V f main_arg5 (by decide)).trans h.a5
  a6 := (Pipeline.withArrays_of_ne spec1 c V f main_arg6 (by decide)).trans h.a6

/-! ## Between the regions, and after the last -/

set_option maxHeartbeats 4000000 in
/-- The second region's features: a round of message passing from the first layer's output. -/
theorem host1_agg (V : Valuation τ sig (Elt F)) :
    after hostOps1 V (Proc.devRef .tc main_v47)
      = aggregate (V (Proc.devRef .tc main_v34)) (V (Proc.devRef .tc main_v12)) (V (Proc.devRef .tc main_arg7))
          (V (Proc.devRef .tc main_arg8)) := by
  after_results_simp; rfl
set_option maxHeartbeats 4000000 in
theorem host1_col (V : Valuation τ sig (Elt F)) :
    after hostOps1 V (Proc.devRef .tc main_v48) = shapeCast S50000x1 (V (Proc.devRef .tc main_v18)) shapeCasts_S50000_S50000x1 := by
  after_results_simp; rfl
set_option maxHeartbeats 4000000 in
theorem host1_w (V : Valuation τ sig (Elt F)) :
    after hostOps1 V (Proc.devRef .tc main_arg3) = V (Proc.devRef .tc main_arg3) := by
  after_results_simp
set_option maxHeartbeats 4000000 in
theorem host1_row (V : Valuation τ sig (Elt F)) :
    after hostOps1 V (Proc.devRef .tc main_v49) = shapeCast S1x128 (V (Proc.devRef .tc main_arg4)) shapeCasts_S128_S1x128 := by
  after_results_simp; rfl

set_option maxHeartbeats 4000000 in
/-- The third region's features: a round of message passing from the second layer's output. -/
theorem host2_agg (V : Valuation τ sig (Elt F)) :
    after hostOps2 V (Proc.devRef .tc main_v63)
      = aggregate (V (Proc.devRef .tc main_v50)) (V (Proc.devRef .tc main_v12)) (V (Proc.devRef .tc main_arg7))
          (V (Proc.devRef .tc main_arg8)) := by
  after_results_simp; rfl
set_option maxHeartbeats 4000000 in
theorem host2_col (V : Valuation τ sig (Elt F)) :
    after hostOps2 V (Proc.devRef .tc main_v64) = shapeCast S50000x1 (V (Proc.devRef .tc main_v18)) shapeCasts_S50000_S50000x1 := by
  after_results_simp; rfl
set_option maxHeartbeats 4000000 in
theorem host2_w (V : Valuation τ sig (Elt F)) :
    after hostOps2 V (Proc.devRef .tc main_arg5) = V (Proc.devRef .tc main_arg5) := by
  after_results_simp
set_option maxHeartbeats 4000000 in
theorem host2_row (V : Valuation τ sig (Elt F)) :
    after hostOps2 V (Proc.devRef .tc main_v65) = shapeCast S1x64 (V (Proc.devRef .tc main_arg6)) shapeCasts_S64_S1x64 := by
  after_results_simp; rfl

set_option maxHeartbeats 4000000 in
/-- The result: the per-graph mean of the third layer's output. -/
theorem host3_result (V : Valuation τ sig (Elt F)) :
    after hostOps3 V (Proc.devRef .tc main_v78) = pool (V (Proc.devRef .tc main_v66)) (V (Proc.devRef .tc main_arg9)) := by
  after_results_simp; rfl

end Cert.KernelIdeal.Stretches

end
-- ==== Proof.Region0.lean ====
/-
  Dense layer 1 of the network, as the array its region leaves.

  The region walks the 50000 nodes in ten blocks of 5000 rows. At a block it is handed that block of rows of the aggregated
  features `a`, the same rows of the column `s` of per-node scales, the whole weight matrix `w` and the whole bias row `b`, and
  stores `max ((a ⊙ s) · w + b) 0` for those rows. An entry of that array depends on one row of `a` and that row's scale only,
  so each block stored is a block of rows of ONE array, `scaledLayer a s w b` over all 50000 rows, and the ten blocks tile it.
-/
import proofs.«110242_j27367531610736_1_alg».proof.Proof.Gen.KernelIdeal.Frame
import proofs.«110242_j27367531610736_1_alg».proof.Proof.LibScaledLayer

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.ScaledLayer Cert.LibBiasRow

variable (V : (c : Dev nD) → (b : Ref sig .tc) → Buf (Elt Ideal) ((c : Thread nD τ).loc b))

theorem hz : (![0, 0] : Fin 2 → Nat) = fun _ => 0 := funext fun a => by fin_cases a <;> rfl

/-- What the body stores for a block: the scaled, rectified layer of the block's rows. -/
theorem payload_eq (x0 : Vec Ideal S5000x128 .f32) (x1 : Vec Ideal S5000x1 .f32) (x2 : Vec Ideal S128x128 .f32) (x3 : Vec Ideal S1x128 .f32) :
    k0_pay1 x0 x1 x2 x3 = scaledLayer x0 (fun p => x1 (ix2 p (0 : Fin 1))) x2 (rowBias x3) := by
  unfold k0_pay1
  exact vec_scaledLayer dot_S5000x128_S128x128_S5000x128_1_0_0_1_n_n rfl none x0 x1 x2 x3 _ _ _ _ _ _

/-- The layer over all rows, of the arrays as the region finds them. -/
def layer (c : Dev nD) : S50000x128.Idx → EReal :=
  scaledLayer (V c main_v31) (fun P => V c main_v32 (ix2 P (0 : Fin 1))) (V c main_arg1) (rowBias (V c main_v33))

/-- The printed index maps over the grid: the two row-blocked inputs move with the output's row block, the weight matrix and
    the bias row stay at block zero, and the output's block is a row block below ten. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every row block is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- The weight matrix's one block is the matrix. -/
theorem read_w (c : Dev nD) (t : Fin cfg0.N) : iblk0 V c 2 t = V c main_arg1 := by
  obtain ⟨e00, e01, e10, e11, e20, e21, e30, e31, e41, e4⟩ := idx_facts t
  funext y
  show V c main_arg1 (((cfg0.win 2).blk t).view.emb y) = V c main_arg1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's one block is the row. -/
theorem read_b (c : Dev nD) (t : Fin cfg0.N) : iblk0 V c 3 t = V c main_v33 := by
  obtain ⟨e00, e01, e10, e11, e20, e21, e30, e31, e41, e4⟩ := idx_facts t
  funext y
  show V c main_v33 (((cfg0.win 3).blk t).view.emb y) = V c main_v33 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Row `p` of the features' block at a point is row `P` of the features, `P` the block's first row plus `p`. -/
theorem read_a (c : Dev nD) (t : Fin cfg0.N) (p : Fin 5000) (k : Fin 128) (P : Fin 50000)
    (hP : P.val = win0_4.index t (0 : Fin 2) * 5000 + p.val) :
    iblk0 V c 0 t (ix2 p k) = V c main_v31 (ix2 P k) := by
  obtain ⟨e00, e01, e10, e11, e20, e21, e30, e31, e41, e4⟩ := idx_facts t
  show V c main_v31 (((cfg0.win 0).blk t).view.emb (ix2 p k)) = V c main_v31 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- Row `p` of the scales' block at a point is row `P` of the scale column. -/
theorem read_s (c : Dev nD) (t : Fin cfg0.N) (p : Fin 5000) (P : Fin 50000)
    (hP : P.val = win0_4.index t (0 : Fin 2) * 5000 + p.val) :
    iblk0 V c 1 t (ix2 p (0 : Fin 1)) = V c main_v32 (ix2 P (0 : Fin 1)) := by
  obtain ⟨e00, e01, e10, e11, e20, e21, e30, e31, e41, e4⟩ := idx_facts t
  show V c main_v32 (((cfg0.win 1).blk t).view.emb (ix2 p (0 : Fin 1))) = V c main_v32 (ix2 P (0 : Fin 1))
  refine congrArg _ (funext fun a => Fin.ext ?_)
  match a with
  | ⟨0, _⟩ => show win0_1.index t (0 : Fin 2) * 5000 + 1 * p.val = P.val; omega
  | ⟨1, _⟩ => show win0_1.index t (1 : Fin 2) * 1 + 1 * 0 = 0; omega

/-- What point `t` writes back is block `t` of the layer over all rows. -/
theorem flushed_eq (c : Dev nD) (t : Fin cfg0.N) :
    (dat0 V c).flushed 4 t = ((cfg0.win 4).blk t).view.read (Elt Ideal) (layer V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  rw [payload_eq, read_w, read_b]
  obtain ⟨e00, e01, e10, e11, e20, e21, e30, e31, e41, e4⟩ := idx_facts t
  funext j
  obtain ⟨p, q, rfl⟩ : ∃ (p : Fin 5000) (q : Fin 128), j = ix2 p q := ⟨j 0, j 1, eq_ix2 j⟩
  have hlt : win0_4.index t (0 : Fin 2) * 5000 + p.val < 50000 := by have := p.isLt; omega
  have hemb : ((cfg0.win 4).blk t).view.emb (ix2 p q) = ix2 (⟨win0_4.index t (0 : Fin 2) * 5000 + p.val, hlt⟩ : Fin 50000) q := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  show scaledLayer (iblk0 V c 0 t) (fun p => iblk0 V c 1 t (ix2 p (0 : Fin 1))) (V c main_arg1) (rowBias (V c main_v33)) (ix2 p q)
    = layer V c (((cfg0.win 4).blk t).view.emb (ix2 p q))
  rw [hemb]
  exact scaledLayer_rows _ _ _ _ _ _ p ⟨_, hlt⟩ q (fun k => read_a V c t p k ⟨_, hlt⟩ rfl) (read_s V c t p ⟨_, hlt⟩ rfl)

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v34).slice (win0_4.rect t)).set ↔ _
  rw [View.set_slice_whole, Rect.mem_set_unit]
  exact Iff.rfl

/-- Every index of the array is in some point's block: row `r` is in row block `r / 5000`. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY the region leaves: the layer over all rows. -/
theorem final (c : Dev nD) : (dat0 V c).arrAt 4 cfg0.N = layer V c :=
  (dat0 V c).arrAt_eq_of_cover 4 (layer V c) (fun t _ => flushed_eq V c t) (cover)

end Cert.KernelIdeal.Region0

end
-- ==== Proof.Region1.lean ====
/-
  Dense layer 2 of the network, as the array its region leaves.

  The region walks the 50000 nodes in ten blocks of 5000 rows. At a block it is handed that block of rows of the aggregated
  features `a`, the same rows of the column `s` of per-node scales, the whole weight matrix `w` and the whole bias row `b`, and
  stores `max ((a ⊙ s) · w + b) 0` for those rows. An entry of that array depends on one row of `a` and that row's scale only,
  so each block stored is a block of rows of ONE array, `scaledLayer a s w b` over all 50000 rows, and the ten blocks tile it.
-/
import proofs.«110242_j27367531610736_1_alg».proof.Proof.Gen.KernelIdeal.Frame
import proofs.«110242_j27367531610736_1_alg».proof.Proof.LibScaledLayer

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.ScaledLayer Cert.LibBiasRow

variable (V : (c : Dev nD) → (b : Ref sig .tc) → Buf (Elt Ideal) ((c : Thread nD τ).loc b))

theorem hz : (![0, 0] : Fin 2 → Nat) = fun _ => 0 := funext fun a => by fin_cases a <;> rfl

/-- What the body stores for a block: the scaled, rectified layer of the block's rows. -/
theorem payload_eq (x0 : Vec Ideal S5000x128 .f32) (x1 : Vec Ideal S5000x1 .f32) (x2 : Vec Ideal S128x128 .f32) (x3 : Vec Ideal S1x128 .f32) :
    k1_pay1 x0 x1 x2 x3 = scaledLayer x0 (fun p => x1 (ix2 p (0 : Fin 1))) x2 (rowBias x3) := by
  unfold k1_pay1
  exact vec_scaledLayer dot_S5000x128_S128x128_S5000x128_1_0_0_1_n_n rfl none x0 x1 x2 x3 _ _ _ _ _ _

/-- The layer over all rows, of the arrays as the region finds them. -/
def layer (c : Dev nD) : S50000x128.Idx → EReal :=
  scaledLayer (V c main_v47) (fun P => V c main_v48 (ix2 P (0 : Fin 1))) (V c main_arg3) (rowBias (V c main_v49))

/-- The printed index maps over the grid: the two row-blocked inputs move with the output's row block, the weight matrix and
    the bias row stay at block zero, and the output's block is a row block below ten. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- The weight matrix's one block is the matrix. -/
theorem read_w (c : Dev nD) (t : Fin cfg1.N) : iblk1 V c 2 t = V c main_arg3 := by
  obtain ⟨e00, e01, e10, e11, e20, e21, e30, e31, e41, e4⟩ := idx_facts t
  funext y
  show V c main_arg3 (((cfg1.win 2).blk t).view.emb y) = V c main_arg3 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's one block is the row. -/
theorem read_b (c : Dev nD) (t : Fin cfg1.N) : iblk1 V c 3 t = V c main_v49 := by
  obtain ⟨e00, e01, e10, e11, e20, e21, e30, e31, e41, e4⟩ := idx_facts t
  funext y
  show V c main_v49 (((cfg1.win 3).blk t).view.emb y) = V c main_v49 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Row `p` of the features' block at a point is row `P` of the features, `P` the block's first row plus `p`. -/
theorem read_a (c : Dev nD) (t : Fin cfg1.N) (p : Fin 5000) (k : Fin 128) (P : Fin 50000)
    (hP : P.val = win1_4.index t (0 : Fin 2) * 5000 + p.val) :
    iblk1 V c 0 t (ix2 p k) = V c main_v47 (ix2 P k) := by
  obtain ⟨e00, e01, e10, e11, e20, e21, e30, e31, e41, e4⟩ := idx_facts t
  show V c main_v47 (((cfg1.win 0).blk t).view.emb (ix2 p k)) = V c main_v47 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- Row `p` of the scales' block at a point is row `P` of the scale column. -/
theorem read_s (c : Dev nD) (t : Fin cfg1.N) (p : Fin 5000) (P : Fin 50000)
    (hP : P.val = win1_4.index t (0 : Fin 2) * 5000 + p.val) :
    iblk1 V c 1 t (ix2 p (0 : Fin 1)) = V c main_v48 (ix2 P (0 : Fin 1)) := by
  obtain ⟨e00, e01, e10, e11, e20, e21, e30, e31, e41, e4⟩ := idx_facts t
  show V c main_v48 (((cfg1.win 1).blk t).view.emb (ix2 p (0 : Fin 1))) = V c main_v48 (ix2 P (0 : Fin 1))
  refine congrArg _ (funext fun a => Fin.ext ?_)
  match a with
  | ⟨0, _⟩ => show win1_1.index t (0 : Fin 2) * 5000 + 1 * p.val = P.val; omega
  | ⟨1, _⟩ => show win1_1.index t (1 : Fin 2) * 1 + 1 * 0 = 0; omega

/-- What point `t` writes back is block `t` of the layer over all rows. -/
theorem flushed_eq (c : Dev nD) (t : Fin cfg1.N) :
    (dat1 V c).flushed 4 t = ((cfg1.win 4).blk t).view.read (Elt Ideal) (layer V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  rw [payload_eq, read_w, read_b]
  obtain ⟨e00, e01, e10, e11, e20, e21, e30, e31, e41, e4⟩ := idx_facts t
  funext j
  obtain ⟨p, q, rfl⟩ : ∃ (p : Fin 5000) (q : Fin 128), j = ix2 p q := ⟨j 0, j 1, eq_ix2 j⟩
  have hlt : win1_4.index t (0 : Fin 2) * 5000 + p.val < 50000 := by have := p.isLt; omega
  have hemb : ((cfg1.win 4).blk t).view.emb (ix2 p q) = ix2 (⟨win1_4.index t (0 : Fin 2) * 5000 + p.val, hlt⟩ : Fin 50000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  show scaledLayer (iblk1 V c 0 t) (fun p => iblk1 V c 1 t (ix2 p (0 : Fin 1))) (V c main_arg3) (rowBias (V c main_v49)) (ix2 p q)
    = layer V c (((cfg1.win 4).blk t).view.emb (ix2 p q))
  rw [hemb]
  exact scaledLayer_rows _ _ _ _ _ _ p ⟨_, hlt⟩ q (fun k => read_a V c t p k ⟨_, hlt⟩ rfl) (read_s V c t p ⟨_, hlt⟩ rfl)

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v50).slice (win1_4.rect t)).set ↔ _
  rw [View.set_slice_whole, Rect.mem_set_unit]
  exact Iff.rfl

/-- Every index of the array is in some point's block: row `r` is in row block `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY the region leaves: the layer over all rows. -/
theorem final (c : Dev nD) : (dat1 V c).arrAt 4 cfg1.N = layer V c :=
  (dat1 V c).arrAt_eq_of_cover 4 (layer V c) (fun t _ => flushed_eq V c t) (cover)

end Cert.KernelIdeal.Region1

end
-- ==== Proof.Region2.lean ====
/-
  Dense layer 3 of the network, as the array its region leaves.

  The region walks the 50000 nodes in ten blocks of 5000 rows. At a block it is handed that block of rows of the aggregated
  features `a`, the same rows of the column `s` of per-node scales, the whole weight matrix `w` and the whole bias row `b`, and
  stores `max ((a ⊙ s) · w + b) 0` for those rows. An entry of that array depends on one row of `a` and that row's scale only,
  so each block stored is a block of rows of ONE array, `scaledLayer a s w b` over all 50000 rows, and the ten blocks tile it.
-/
import proofs.«110242_j27367531610736_1_alg».proof.Proof.Gen.KernelIdeal.Frame
import proofs.«110242_j27367531610736_1_alg».proof.Proof.LibScaledLayer

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.ScaledLayer Cert.LibBiasRow

variable (V : (c : Dev nD) → (b : Ref sig .tc) → Buf (Elt Ideal) ((c : Thread nD τ).loc b))

theorem hz : (![0, 0] : Fin 2 → Nat) = fun _ => 0 := funext fun a => by fin_cases a <;> rfl

/-- What the body stores for a block: the scaled, rectified layer of the block's rows. -/
theorem payload_eq (x0 : Vec Ideal S5000x128 .f32) (x1 : Vec Ideal S5000x1 .f32) (x2 : Vec Ideal S128x64 .f32) (x3 : Vec Ideal S1x64 .f32) :
    k2_pay1 x0 x1 x2 x3 = scaledLayer x0 (fun p => x1 (ix2 p (0 : Fin 1))) x2 (rowBias x3) := by
  unfold k2_pay1
  exact vec_scaledLayer dot_S5000x128_S128x64_S5000x64_1_0_0_1_n_n rfl none x0 x1 x2 x3 _ _ _ _ _ _

/-- The layer over all rows, of the arrays as the region finds them. -/
def layer (c : Dev nD) : S50000x64.Idx → EReal :=
  scaledLayer (V c main_v63) (fun P => V c main_v64 (ix2 P (0 : Fin 1))) (V c main_arg5) (rowBias (V c main_v65))

/-- The printed index maps over the grid: the two row-blocked inputs move with the output's row block, the weight matrix and
    the bias row stay at block zero, and the output's block is a row block below ten. -/
theorem idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

/-- Every row block is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- The weight matrix's one block is the matrix. -/
theorem read_w (c : Dev nD) (t : Fin cfg2.N) : iblk2 V c 2 t = V c main_arg5 := by
  obtain ⟨e00, e01, e10, e11, e20, e21, e30, e31, e41, e4⟩ := idx_facts t
  funext y
  show V c main_arg5 (((cfg2.win 2).blk t).view.emb y) = V c main_arg5 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The bias row's one block is the row. -/
theorem read_b (c : Dev nD) (t : Fin cfg2.N) : iblk2 V c 3 t = V c main_v65 := by
  obtain ⟨e00, e01, e10, e11, e20, e21, e30, e31, e41, e4⟩ := idx_facts t
  funext y
  show V c main_v65 (((cfg2.win 3).blk t).view.emb y) = V c main_v65 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Row `p` of the features' block at a point is row `P` of the features, `P` the block's first row plus `p`. -/
theorem read_a (c : Dev nD) (t : Fin cfg2.N) (p : Fin 5000) (k : Fin 128) (P : Fin 50000)
    (hP : P.val = win2_4.index t (0 : Fin 2) * 5000 + p.val) :
    iblk2 V c 0 t (ix2 p k) = V c main_v63 (ix2 P k) := by
  obtain ⟨e00, e01, e10, e11, e20, e21, e30, e31, e41, e4⟩ := idx_facts t
  show V c main_v63 (((cfg2.win 0).blk t).view.emb (ix2 p k)) = V c main_v63 (ix2 P k)
  refine congrArg _ (funext fun a => Fin.ext ?_)
  match a with
  | ⟨0, _⟩ => show win2_0.index t (0 : Fin 2) * 5000 + 1 * p.val = P.val; omega
  | ⟨1, _⟩ => show win2_0.index t (1 : Fin 2) * 128 + 1 * k.val = k.val; omega

/-- Row `p` of the scales' block at a point is row `P` of the scale column. -/
theorem read_s (c : Dev nD) (t : Fin cfg2.N) (p : Fin 5000) (P : Fin 50000)
    (hP : P.val = win2_4.index t (0 : Fin 2) * 5000 + p.val) :
    iblk2 V c 1 t (ix2 p (0 : Fin 1)) = V c main_v64 (ix2 P (0 : Fin 1)) := by
  obtain ⟨e00, e01, e10, e11, e20, e21, e30, e31, e41, e4⟩ := idx_facts t
  show V c main_v64 (((cfg2.win 1).blk t).view.emb (ix2 p (0 : Fin 1))) = V c main_v64 (ix2 P (0 : Fin 1))
  refine congrArg _ (funext fun a => Fin.ext ?_)
  match a with
  | ⟨0, _⟩ => show win2_1.index t (0 : Fin 2) * 5000 + 1 * p.val = P.val; omega
  | ⟨1, _⟩ => show win2_1.index t (1 : Fin 2) * 1 + 1 * 0 = 0; omega

/-- What point `t` writes back is block `t` of the layer over all rows. -/
theorem flushed_eq (c : Dev nD) (t : Fin cfg2.N) :
    (dat2 V c).flushed 4 t = ((cfg2.win 4).blk t).view.read (Elt Ideal) (layer V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz,
    View.ld_unit_zero (S := S128x64) hz, View.ld_unit_zero (S := S1x64) hz]
  rw [payload_eq, read_w, read_b]
  obtain ⟨e00, e01, e10, e11, e20, e21, e30, e31, e41, e4⟩ := idx_facts t
  funext j
  obtain ⟨p, q, rfl⟩ : ∃ (p : Fin 5000) (q : Fin 64), j = ix2 p q := ⟨j 0, j 1, eq_ix2 j⟩
  have hlt : win2_4.index t (0 : Fin 2) * 5000 + p.val < 50000 := by have := p.isLt; omega
  have hemb : ((cfg2.win 4).blk t).view.emb (ix2 p q) = ix2 (⟨win2_4.index t (0 : Fin 2) * 5000 + p.val, hlt⟩ : Fin 50000) q := by
    funext a; apply Fin.ext
    match a with
    | ⟨0, _⟩ => show win2_4.index t (0 : Fin 2) * 5000 + 1 * p.val = win2_4.index t (0 : Fin 2) * 5000 + p.val; omega
    | ⟨1, _⟩ => show win2_4.index t (1 : Fin 2) * 64 + 1 * q.val = q.val; omega
  show scaledLayer (iblk2 V c 0 t) (fun p => iblk2 V c 1 t (ix2 p (0 : Fin 1))) (V c main_arg5) (rowBias (V c main_v65)) (ix2 p q)
    = layer V c (((cfg2.win 4).blk t).view.emb (ix2 p q))
  rw [hemb]
  exact scaledLayer_rows _ _ _ _ _ _ p ⟨_, hlt⟩ q (fun k => read_a V c t p k ⟨_, hlt⟩ rfl) (read_s V c t p ⟨_, hlt⟩ rfl)

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v66).slice (win2_4.rect t)).set ↔ _
  rw [View.set_slice_whole, Rect.mem_set_unit]
  exact Iff.rfl

/-- Every index of the array is in some point's block: row `r` is in row block `r / 5000`. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- THE ARRAY the region leaves: the layer over all rows. -/
theorem final (c : Dev nD) : (dat2 V c).arrAt 4 cfg2.N = layer V c :=
  (dat2 V c).arrAt_eq_of_cover 4 (layer V c) (fun t _ => flushed_eq V c t) (cover)

end Cert.KernelIdeal.Region2

end
-- ==== Proof.KernelRun.lean ====
/-
  The idealized kernel's run with its result kept.

  @main is eleven segments: five stretches of host operations, the first dense layer's region, a stretch, the second
  layer's region, a stretch, the third layer's region, and the closing stretch that pools the nodes of each graph. The
  buffer contents at the segment boundaries are a fold from the launch memory: a stretch applies its operations in order, a
  region leaves each of its arrays at what its write-backs leave and every other buffer as it found it. Every weakly fair
  execution terminates with every unscoped buffer at the last boundary's contents; read at the result buffer, that is the
  value of the pooled output, and read at an argument buffer it is the argument as launched.
-/
import proofs.«110242_j27367531610736_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Run

end
-- ==== Proof.KernelValue.lean ====
/-
  The idealized kernel's result is the network of its arguments.

  Walk @main's segments from the launch. The stretches before the first region leave the first round of message passing, the
  in-degree factors as a column and the first bias as a row; the region leaves the first layer of them over all 50000 rows. A
  column cast from a vector reads the vector's entry at each row, and a row cast from a vector reads the vector's entry at each
  column, so the layer the region computes from the two layouts is the layer of the vectors themselves (`hidden_of_layouts`).
  The stretch after it aggregates that output along the same edges with the same factors, which no segment has written
  since; the second and third regions repeat the step; the closing stretch pools the third layer's output per graph.
-/
import proofs.«110242_j27367531610736_1_alg».proof.Proof.Stretches
import proofs.«110242_j27367531610736_1_alg».proof.Proof.Region0
import proofs.«110242_j27367531610736_1_alg».proof.Proof.Region1
import proofs.«110242_j27367531610736_1_alg».proof.Proof.Region2
import proofs.«110242_j27367531610736_1_alg».proof.Proof.KernelRun
import proofs.«110242_j27367531610736_1_alg».proof.Proof.LibColumn
import Idealize.ShloMosaic.Lib.ValueLayout

set_option maxRecDepth 16384

noncomputable section

namespace Cert.KernelIdeal.NetValue

open Idealize.ShloMosaic Idealize.ShloMosaic.TcCoe Idealize.SL.Sem Idealize.ShloMosaic.StableHlo Idealize.ShloMosaic.ValueIdx
open Cert.KernelIdeal Cert.KernelIdeal.Gen Cert.KernelIdeal.Chains
open Cert.KernelIdeal.Stretches Cert.ScaledLayer Cert.LayerForms Cert.LibBiasRow

/-- The layer of a column cast from the factors and a row cast from the bias is the layer of the factors and the bias. -/
theorem hidden_of_layouts (a : FVec Ideal S50000x128 .f32) (nIn : FVec Ideal S50000 .f32) (w : FVec Ideal S128x128 .f32)
    (b : FVec Ideal S128 .f32) :
    scaledLayer (M := 50000) (K := 128) (N := 128) a
        (fun P => shapeCast S50000x1 nIn shapeCasts_S50000_S50000x1 (ix2 P (0 : Fin 1))) w
        (rowBias (shapeCast S1x128 b shapeCasts_S128_S1x128))
      = hidden a nIn w b := by
  have e1 : (fun P : Fin 50000 => shapeCast S50000x1 nIn shapeCasts_S50000_S50000x1 (ix2 P (0 : Fin 1))) = fun P => nIn (ix1 P) :=
    funext fun P => Cert.LibColumn.shapeCast_a_a1_apply nIn _ P 0
  have e2 : rowBias (shapeCast S1x128 b shapeCasts_S128_S1x128) = colBias b :=
    funext fun q => shapeCast_a_1a_apply b _ 0 q
  unfold Cert.KernelIdeal.Chains.hidden
  rw [e1, e2]

/-- The same for the last layer, 64 features out. -/
theorem hiddenOut_of_layouts (a : FVec Ideal S50000x128 .f32) (nIn : FVec Ideal S50000 .f32) (w : FVec Ideal S128x64 .f32)
    (b : FVec Ideal S64 .f32) :
    scaledLayer (M := 50000) (K := 128) (N := 64) a
        (fun P => shapeCast S50000x1 nIn shapeCasts_S50000_S50000x1 (ix2 P (0 : Fin 1))) w
        (rowBias (shapeCast S1x64 b shapeCasts_S64_S1x64))
      = hiddenOut a nIn w b := by
  have e1 : (fun P : Fin 50000 => shapeCast S50000x1 nIn shapeCasts_S50000_S50000x1 (ix2 P (0 : Fin 1))) = fun P => nIn (ix1 P) :=
    funext fun P => Cert.LibColumn.shapeCast_a_a1_apply nIn _ P 0
  have e2 : rowBias (shapeCast S1x64 b shapeCasts_S64_S1x64) = colBias b :=
    funext fun q => shapeCast_a_1a_apply b _ 0 q
  unfold Cert.KernelIdeal.Chains.hiddenOut
  rw [e1, e2]

variable (m : (ℓ : Loc nD τ sig) → Buf (Elt Ideal) ℓ) (ρ : Dev nD → PrngReg) (c : Dev nD)

/-! ## The boundaries' carried contents -/

theorem carried5 : Carried (W0 m ρ c) (W5 m ρ c) := carried_before0 (W0 m ρ c)
theorem carried6 : Carried (W0 m ρ c) (W6 m ρ c) := (carried5 m ρ c).region0 c _
theorem carried7 : Carried (W0 m ρ c) (W7 m ρ c) := (carried6 m ρ c).host1
theorem carried8 : Carried (W0 m ρ c) (W8 m ρ c) := (carried7 m ρ c).region1 c _
theorem carried9 : Carried (W0 m ρ c) (W9 m ρ c) := (carried8 m ρ c).host2
theorem carried10 : Carried (W0 m ρ c) (W10 m ρ c) := (carried9 m ρ c).region2 c _
theorem params6 : Params1 (W0 m ρ c) (W6 m ρ c) := (params1_before0 (W0 m ρ c)).region0 c _
theorem params8 : Params2 (W0 m ρ c) (W8 m ρ c) := ((params6 m ρ c).toParams2.host1).region1 c _

/-! ## The three layers' outputs -/

/-- After the first region: the first layer of the first round of message passing. -/
theorem out1 : W6 m ρ c (Proc.devRef .tc main_v34) = hidden (aggregate (W0 m ρ c (Proc.devRef .tc main_arg0)) (degNorm (W0 m ρ c (Proc.devRef .tc main_arg7))) (W0 m ρ c (Proc.devRef .tc main_arg7)) (W0 m ρ c (Proc.devRef .tc main_arg8))) (degNorm (W0 m ρ c (Proc.devRef .tc main_arg8))) (W0 m ρ c (Proc.devRef .tc main_arg1)) (W0 m ρ c (Proc.devRef .tc main_arg2)) := by
  refine (W6_arr m ρ c 4).trans ((Region0.final (V5 m ρ) c).trans ?_)
  unfold Region0.layer
  rw [show V5 m ρ c main_v31 = _ from before0_agg (W0 m ρ c), show V5 m ρ c main_v32 = _ from before0_col (W0 m ρ c),
    show V5 m ρ c main_arg1 = _ from before0_w (W0 m ρ c), show V5 m ρ c main_v33 = _ from before0_row (W0 m ρ c)]
  exact hidden_of_layouts _ _ _ _

/-- After the second region: the second layer of the second round. -/
theorem out2 : W8 m ρ c (Proc.devRef .tc main_v50) = hidden (aggregate (hidden (aggregate (W0 m ρ c (Proc.devRef .tc main_arg0)) (degNorm (W0 m ρ c (Proc.devRef .tc main_arg7))) (W0 m ρ c (Proc.devRef .tc main_arg7)) (W0 m ρ c (Proc.devRef .tc main_arg8))) (degNorm (W0 m ρ c (Proc.devRef .tc main_arg8))) (W0 m ρ c (Proc.devRef .tc main_arg1)) (W0 m ρ c (Proc.devRef .tc main_arg2))) (degNorm (W0 m ρ c (Proc.devRef .tc main_arg7))) (W0 m ρ c (Proc.devRef .tc main_arg7)) (W0 m ρ c (Proc.devRef .tc main_arg8))) (degNorm (W0 m ρ c (Proc.devRef .tc main_arg8))) (W0 m ρ c (Proc.devRef .tc main_arg3)) (W0 m ρ c (Proc.devRef .tc main_arg4)) := by
  refine (W8_arr m ρ c 4).trans ((Region1.final (V7 m ρ) c).trans ?_)
  unfold Region1.layer
  rw [show V7 m ρ c main_v47 = _ from host1_agg (W6 m ρ c), show V7 m ρ c main_v48 = _ from host1_col (W6 m ρ c),
    show V7 m ρ c main_arg3 = _ from host1_w (W6 m ρ c), show V7 m ρ c main_v49 = _ from host1_row (W6 m ρ c),
    out1 m ρ c, (carried6 m ρ c).nOut, (carried6 m ρ c).nIn, (carried6 m ρ c).a7, (carried6 m ρ c).a8,
    (params6 m ρ c).a3, (params6 m ρ c).a4]
  exact hidden_of_layouts _ _ _ _

/-- After the third region: the third layer of the third round. -/
theorem out3 : W10 m ρ c (Proc.devRef .tc main_v66) = hiddenOut (aggregate (hidden (aggregate (hidden (aggregate (W0 m ρ c (Proc.devRef .tc main_arg0)) (degNorm (W0 m ρ c (Proc.devRef .tc main_arg7))) (W0 m ρ c (Proc.devRef .tc main_arg7)) (W0 m ρ c (Proc.devRef .tc main_arg8))) (degNorm (W0 m ρ c (Proc.devRef .tc main_arg8))) (W0 m ρ c (Proc.devRef .tc main_arg1)) (W0 m ρ c (Proc.devRef .tc main_arg2))) (degNorm (W0 m ρ c (Proc.devRef .tc main_arg7))) (W0 m ρ c (Proc.devRef .tc main_arg7)) (W0 m ρ c (Proc.devRef .tc main_arg8))) (degNorm (W0 m ρ c (Proc.devRef .tc main_arg8))) (W0 m ρ c (Proc.devRef .tc main_arg3)) (W0 m ρ c (Proc.devRef .tc main_arg4))) (degNorm (W0 m ρ c (Proc.devRef .tc main_arg7))) (W0 m ρ c (Proc.devRef .tc main_arg7)) (W0 m ρ c (Proc.devRef .tc main_arg8))) (degNorm (W0 m ρ c (Proc.devRef .tc main_arg8))) (W0 m ρ c (Proc.devRef .tc main_arg5)) (W0 m ρ c (Proc.devRef .tc main_arg6)) := by
  refine (W10_arr m ρ c 4).trans ((Region2.final (V9 m ρ) c).trans ?_)
  unfold Region2.layer
  rw [show V9 m ρ c main_v63 = _ from host2_agg (W8 m ρ c), show V9 m ρ c main_v64 = _ from host2_col (W8 m ρ c),
    show V9 m ρ c main_arg5 = _ from host2_w (W8 m ρ c), show V9 m ρ c main_v65 = _ from host2_row (W8 m ρ c),
    out2 m ρ c, (carried8 m ρ c).nOut, (carried8 m ρ c).nIn, (carried8 m ρ c).a7, (carried8 m ρ c).a8,
    (params8 m ρ c).a5, (params8 m ρ c).a6]
  exact hiddenOut_of_layouts _ _ _ _

/-- THE RESULT BUFFER at the last boundary: the network of the arguments as launched. -/
theorem result_eq : W11 m ρ c (Proc.devRef .tc main_v78) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (host3_result (W10 m ρ c)).trans ?_
  rw [out3 m ρ c, (carried10 m ρ c).a9]
  rfl

/-- The run: every weakly fair execution terminates with the result at the network of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v78) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Cert.KernelIdeal.Run.run_result m ρ)

end Cert.KernelIdeal.NetValue

end
-- ==== Proof.RefValue.lean ====
/-
  The idealized reference's result is the network of its arguments.

  The reference runs the same host operations as the kernel's program around the three dense layers (`rDegNorm`, `rAggregate`,
  `rPool`: the same definitions over the reference's own dimension records, which list the same axes), and spells each layer on
  the host: the in-degree factors lifted to a column and broadcast, a product, a general dot product with the weights, the bias
  lifted to a row and broadcast, and the maximum with zero (`hostHidden`, `hostHiddenOut`). Its run's composed term is that
  composition by unfolding; each host-spelt layer is the array `scaledLayer` (`host_scaledLayer`), which is what the network is
  made of.
-/
import proofs.«110242_j27367531610736_1_alg».proof.Proof.RefRun
import proofs.«110242_j27367531610736_1_alg».proof.Proof.Chains
import proofs.«110242_j27367531610736_1_alg».proof.Proof.LibScaledLayer

set_option maxRecDepth 16384

noncomputable section

namespace Cert.ReferenceIdeal.NetValue

open Idealize.ShloMosaic Idealize.ShloMosaic.TcCoe Idealize.SL.Sem Idealize.ShloMosaic.ValueIdx
open Cert.ReferenceIdeal Cert.ReferenceIdeal.Facts₀ Cert.ReferenceIdeal.Facts Cert.ScaledLayer Cert.LayerForms

section Shared

variable {F : FTy → Type} [FloatOps F]

/-- Every node's degree: ones scatter-added at the edge endpoints. -/
def rDegree (idx : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- `deg^(-1/2)` where the degree is positive, zero elsewhere. -/
def rDegNorm (idx : IVec S800000 32) : FVec F S50000 .f32 :=
  select (cmpf (F := F) .ogt (rDegree idx) (broadcastInDim S50000 ![] bcast_S_S50000 (constant S_ .f32 0x00000000#32)))
    (Host.rsqrt (maximumf (rDegree (F := F) idx) (broadcastInDim S50000 ![] bcast_S_S50000 (constant S_ .f32 0x3F800000#32))))
    (broadcastInDim S50000 ![] bcast_S_S50000 (id (constant S_ .f32 0x00000000#32)))

/-- The edges' source indices as gather indices: a negative index wrapped around by 50000. -/
def rSrcIndex (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One round of message passing: scale, gather at the sources, scatter-add at the destinations. -/
def rAggregate (h : FVec F S50000x128 .f32) (nOut : FVec F S50000 .f32) (src dst : IVec S800000 32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128
      (mulf h (broadcastInDim S50000x128 ![0, 1] bcast_S50000x1_S50000x128_0_1
        (broadcastInDim S50000x1 ![0] bcast_S50000_S50000x1_0 nOut)))
      (rSrcIndex src))

/-- The per-graph mean of the node features. -/
def rPool (h : FVec F S50000x64 .f32) (gid : IVec S50000 32) : FVec F S500x64 .f32 :=
  Host.divf
    (Host.scatterAdd scatter_S500x64_S50000x1_S50000x64_1_0_0_1
      (broadcastInDim S500x64 ![] bcast_S_S500x64 (constant S_ .f32 0x00000000#32))
      (broadcastInDim S50000x1 ![0] bcast_S50000_S50000x1_0 gid) h)
    (broadcastInDim S500x64 ![0, 1] bcast_S500x1_S500x64_0_1 (broadcastInDim S500x1 ![0] bcast_S500_S500x1_0
      (maximumf
        (Host.scatterAdd scatter_S500_S50000x1_S50000_n_0_0_1
          (broadcastInDim S500 ![] bcast_S_S500 (constant S_ .f32 0x00000000#32))
          (broadcastInDim S50000x1 ![0] bcast_S50000_S50000x1_0 gid)
          (broadcastInDim S50000 ![] bcast_S_S50000 (constant S_ .f32 0x3F800000#32)))
        (broadcastInDim S500 ![] bcast_S_S500 (constant S_ .f32 0x3F800000#32)))))

/-- A hidden dense layer as the host spells it. -/
def hostHidden (a : FVec F S50000x128 .f32) (nIn : FVec F S50000 .f32) (w : FVec F S128x128 .f32)
    (b : FVec F S128 .f32) : FVec F S50000x128 .f32 :=
  maximumf
    (addf
      (Host.dotGeneral dot_S50000x128_S128x128_S50000x128_1_0_0_1_n_n none
        (mulf a (broadcastInDim S50000x128 ![0, 1] bcast_S50000x1_S50000x128_0_1
          (broadcastInDim S50000x1 ![0] bcast_S50000_S50000x1_0 nIn))) w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The last dense layer as the host spells it. -/
def hostHiddenOut (a : FVec F S50000x128 .f32) (nIn : FVec F S50000 .f32) (w : FVec F S128x64 .f32)
    (b : FVec F S64 .f32) : FVec F S50000x64 .f32 :=
  maximumf
    (addf
      (Host.dotGeneral dot_S50000x128_S128x64_S50000x64_1_0_0_1_n_n none
        (mulf a (broadcastInDim S50000x128 ![0, 1] bcast_S50000x1_S50000x128_0_1
          (broadcastInDim S50000x1 ![0] bcast_S50000_S50000x1_0 nIn))) w)
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The shared chains are the kernel's program's: the two programs' dimension records list the same axes. -/
theorem rDegNorm_eq : rDegNorm (F := F) = Cert.KernelIdeal.Chains.degNorm := rfl
theorem rAggregate_eq : rAggregate (F := F) = Cert.KernelIdeal.Chains.aggregate := rfl
theorem rPool_eq : rPool (F := F) = Cert.KernelIdeal.Chains.pool := rfl

set_option maxHeartbeats 4000000 in
/-- The run's composed term, read as the composition of the chains and the host-spelt layers. -/
theorem res_unfold (m : (ℓ : Loc nD τ sig) → Buf (Elt F) ℓ) (c : Dev nD) :
    Cert.ReferenceIdeal.ValueP.res_main_v93 m c = rPool (hostHiddenOut (rAggregate (hostHidden (rAggregate (hostHidden (rAggregate (m ((c.tc : Thread nD τ).loc main_arg0)) (rDegNorm (m ((c.tc : Thread nD τ).loc main_arg7))) (m ((c.tc : Thread nD τ).loc main_arg7)) (m ((c.tc : Thread nD τ).loc main_arg8))) (rDegNorm (m ((c.tc : Thread nD τ).loc main_arg8))) (m ((c.tc : Thread nD τ).loc main_arg1)) (m ((c.tc : Thread nD τ).loc main_arg2))) (rDegNorm (m ((c.tc : Thread nD τ).loc main_arg7))) (m ((c.tc : Thread nD τ).loc main_arg7)) (m ((c.tc : Thread nD τ).loc main_arg8))) (rDegNorm (m ((c.tc : Thread nD τ).loc main_arg8))) (m ((c.tc : Thread nD τ).loc main_arg3)) (m ((c.tc : Thread nD τ).loc main_arg4))) (rDegNorm (m ((c.tc : Thread nD τ).loc main_arg7))) (m ((c.tc : Thread nD τ).loc main_arg7)) (m ((c.tc : Thread nD τ).loc main_arg8))) (rDegNorm (m ((c.tc : Thread nD τ).loc main_arg8))) (m ((c.tc : Thread nD τ).loc main_arg5)) (m ((c.tc : Thread nD τ).loc main_arg6))) (m ((c.tc : Thread nD τ).loc main_arg9)) := by
  unfold Cert.ReferenceIdeal.ValueP.res_main_v93
  rfl

end Shared

theorem hostHidden_eq (a : FVec Ideal S50000x128 .f32) (nIn : FVec Ideal S50000 .f32) (w : FVec Ideal S128x128 .f32)
    (b : FVec Ideal S128 .f32) : hostHidden a nIn w b = Cert.KernelIdeal.Chains.hidden a nIn w b :=
  host_scaledLayer (M := 50000) (K := 128) (N := 128) dot_S50000x128_S128x128_S50000x128_1_0_0_1_n_n rfl none a nIn w b _ _ _ _ _

theorem hostHiddenOut_eq (a : FVec Ideal S50000x128 .f32) (nIn : FVec Ideal S50000 .f32) (w : FVec Ideal S128x64 .f32)
    (b : FVec Ideal S64 .f32) : hostHiddenOut a nIn w b = Cert.KernelIdeal.Chains.hiddenOut a nIn w b :=
  host_scaledLayer (M := 50000) (K := 128) (N := 64) dot_S50000x128_S128x64_S50000x64_1_0_0_1_n_n rfl none a nIn w b _ _ _ _ _

variable (m : (ℓ : Loc nD τ sig) → Buf (Elt Ideal) ℓ) (c : Dev nD)

/-- THE RESULT: the network of the arguments. -/
theorem result_eq : Cert.ReferenceIdeal.ValueP.res_main_v93 (F := Ideal) m c = Cert.KernelIdeal.Chains.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [res_unfold, hostHiddenOut_eq, hostHidden_eq, hostHidden_eq, rDegNorm_eq, rAggregate_eq, rPool_eq]
  rfl

end Cert.ReferenceIdeal.NetValue

end
-- ==== Proof.lean ====
/-
  A three-layer graph convolution network with per-graph mean pooling, 50000 nodes, 800000 edges, 500 graphs: the kernel's
  program against its reference, equal as extended reals.

  Both programs compute, with the same host operations, the degree factors `deg^(-1/2)` of the two edge lists, three rounds
  of message passing (scale by the out-degree factor, gather at the sources, scatter-add at the destinations), and the
  per-graph mean at the end. They differ only in how a dense layer `max ((a ⊙ nIn) · w + b) 0` is spelt. The kernel's program
  hands a region the in-degree factors as a column and the bias as a row, and the region computes the layer ten blocks of
  5000 rows at a time, narrowing both matrix factors to a shorter float format on the way into the matrix unit — no change on
  the extended reals. The reference multiplies by the broadcast factors on the host, takes a general dot product, adds the
  broadcast bias and rectifies. At every entry `(p, q)` both are `max ((∑ k, (a (p, k) · nIn p) · w (k, q)) + b q) 0`, with the
  same grouping of the products, so no law of the reals is needed beyond reading both spellings at an index, and the
  precondition is never opened. An entry of a layer depends on one row of its input, so the ten blocks a region writes back
  are blocks of one array; the shared host chains around the layers are carried as opaque functions of their operands.

  The frames of the two kernel programs are their generated frame certificates; the reference's frame is its run with the
  result dropped. The idealization rewrote no operation, so there is nothing to preserve.
-/
import proofs.«110242_j27367531610736_1_alg».proof.Defs
import proofs.«110242_j27367531610736_1_alg».proof.Proof.Gen.Kernel
import proofs.«110242_j27367531610736_1_alg».proof.Proof.Gen.Kernel.Frame
import proofs.«110242_j27367531610736_1_alg».proof.Proof.Gen.KernelIdeal
import proofs.«110242_j27367531610736_1_alg».proof.Proof.Gen.KernelIdeal.Frame
import proofs.«110242_j27367531610736_1_alg».proof.Proof.Gen.ReferenceIdeal
import proofs.«110242_j27367531610736_1_alg».proof.Proof.Gen.Pre_finite_inputs
import proofs.«110242_j27367531610736_1_alg».proof.Proof.RefRun
import proofs.«110242_j27367531610736_1_alg».proof.Proof.KernelValue
import proofs.«110242_j27367531610736_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the network of the arguments, and the arguments agree. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.NetValue.result_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
